-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x1x512 : Shape := ⟨4, ![8, 256, 1, 512]⟩
abbrev S8x1x64x512 : Shape := ⟨4, ![8, 1, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S_ : Shape := ⟨0, ![]⟩

class Facts : Prop where
  bcast_S_S8x256x1x512 : S_.BroadcastsInDim S8x256x1x512 (![] : Fin 0 → Fin S8x256x1x512.rank)
  reducesTo_S8x256x1x512_S_d0_1_2_3 : S8x256x1x512.ReducesTo [0, 1, 2, 3] S_
  h_S_ : 0 < S_.numel
  bcast_S_S8x1x64x512 : S_.BroadcastsInDim S8x1x64x512 (![] : Fin 0 → Fin S8x1x64x512.rank)
  reducesTo_S8x1x64x512_S_d0_1_2_3 : S8x1x64x512.ReducesTo [0, 1, 2, 3] S_
  bcast_S_S640x512 : S_.BroadcastsInDim S640x512 (![] : Fin 0 → Fin S640x512.rank)
  reducesTo_S640x512_S_d0_1 : S640x512.ReducesTo [0, 1] S_
  bcast_S_S640 : S_.BroadcastsInDim S640 (![] : Fin 0 → Fin S640.rank)
  reducesTo_S640_S_d0 : S640.ReducesTo [0] S_
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S640x512 .f32) (main_arg5 : FVec F S640 .f32) (main_arg6 : FVec F S1024x640 .f32) (main_arg7 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x512 .f32 := Host.absf main_arg4
  let main_cst_6 : FVec F S_ .f32 := constant S_ .f32 0x7F800000#32
  let main_v20 : FVec F S640x512 .f32 := broadcastInDim S640x512 ![] bcast_S_S640x512 main_cst_6
  let main_v21 : IVec S640x512 1 := cmpf .olt main_v19 main_v20
  let main_c_7 : IVec S_ 1 := constantI S_ 1 1#1
  let main_v22 : IVec S_ 1 := (fun x v => Host.reduce IntOp.andi x v reducesTo_S640x512_S_d0_1 h_S_) main_v21 main_c_7
  let main_v23 : IVec S_ 1 := andi main_v18 main_v22
  let main_v24 : FVec F S640 .f32 := Host.absf main_arg5
  let main_cst_8 : FVec F S_ .f32 := constant S_ .f32 0x7F800000#32
  let main_v25 : FVec F S640 .f32 := broadcastInDim S640 ![] bcast_S_S640 main_cst_8
  let main_v26 : IVec S640 1 := cmpf .olt main_v24 main_v25
  let main_c_9 : IVec S_ 1 := constantI S_ 1 1#1
  let main_v27 : IVec S_ 1 := (fun x v => Host.reduce IntOp.andi x v reducesTo_S640_S_d0 h_S_) main_v26 main_c_9
  let main_v28 : IVec S_ 1 := andi main_v23 main_v27
  let main_v29 : FVec F S1024x640 .f32 := Host.absf main_arg6
  let main_cst_10 : FVec F S_ .f32 := constant S_ .f32 0x7F800000#32
  let main_v30 : FVec F S1024x640 .f32 := broadcastInDim S1024x640 ![] bcast_S_S1024x640 main_cst_10
  let main_v31 : IVec S1024x640 1 := cmpf .olt main_v29 main_v30
  let main_c_11 : IVec S_ 1 := constantI S_ 1 1#1
  let main_v32 : IVec S_ 1 := (fun x v => Host.reduce IntOp.andi x v reducesTo_S1024x640_S_d0_1 h_S_) main_v31 main_c_11
  let main_v33 : IVec S_ 1 := andi main_v28 main_v32
  fn_part2 (F := F) main_arg7 main_v33

def fn {F : FTy → Type} [FloatOps F] (main_arg0 : FVec F S8x256x1x512 .f32) (main_arg1 : FVec F S8x1x64x512 .f32) (main_arg2 : FVec F S640x512 .f32) (main_arg3 : FVec F S640 .f32) (main_arg4 : FVec F S640x512 .f32) (main_arg5 : FVec F S640 .f32) (main_arg6 : FVec F S1024x640 .f32) (main_arg7 : FVec F S1024 .f32) : IVec S_ 1 :=
  let main_v0 : FVec F S8x256x1x512 .f32 := Host.absf main_arg0
  let main_cst : FVec F S_ .f32 := constant S_ .f32 0x7F800000#32
  let main_v1 : FVec F S8x256x1x512 .f32 := broadcastInDim S8x256x1x512 ![] bcast_S_S8x256x1x512 main_cst
  let main_v2 : IVec S8x256x1x512 1 := cmpf .olt main_v0 main_v1
  let main_c : IVec S_ 1 := constantI S_ 1 1#1
  let main_v3 : IVec S_ 1 := (fun x v => Host.reduce IntOp.andi x v reducesTo_S8x256x1x512_S_d0_1_2_3 h_S_) main_v2 main_c
  let main_v4 : FVec F S8x1x64x512 .f32 := Host.absf main_arg1
  let main_cst_0 : FVec F S_ .f32 := constant S_ .f32 0x7F800000#32
  let main_v5 : FVec F S8x1x64x512 .f32 := broadcastInDim S8x1x64x512 ![] bcast_S_S8x1x64x512 main_cst_0
  let main_v6 : IVec S8x1x64x512 1 := cmpf .olt main_v4 main_v5
  let main_c_1 : IVec S_ 1 := constantI S_ 1 1#1
  let main_v7 : IVec S_ 1 := (fun x v => Host.reduce IntOp.andi x v reducesTo_S8x1x64x512_S_d0_1_2_3 h_S_) main_v6 main_c_1
  let main_v8 : IVec S_ 1 := andi main_v3 main_v7
  let main_v9 : FVec F S640x512 .f32 := Host.absf main_arg2
  let main_cst_2 : FVec F S_ .f32 := constant S_ .f32 0x7F800000#32
  let main_v10 : FVec F S640x512 .f32 := broadcastInDim S640x512 ![] bcast_S_S640x512 main_cst_2
  let main_v11 : IVec S640x512 1 := cmpf .olt main_v9 main_v10
  let main_c_3 : IVec S_ 1 := constantI S_ 1 1#1
  let main_v12 : IVec S_ 1 := (fun x v => Host.reduce IntOp.andi x v reducesTo_S640x512_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_arg6 main_arg7 main_v13 main_v16
-- ==== Kernel.lean ====
abbrev S8x256x1x512 : Shape := ⟨4, ![8, 256, 1, 512]⟩
abbrev S8x1x64x512 : Shape := ⟨4, ![8, 1, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S512x640 : Shape := ⟨2, ![512, 640]⟩
abbrev S640x1024 : Shape := ⟨2, ![640, 1024]⟩
abbrev S8x256x64x1024 : Shape := ⟨4, ![8, 256, 64, 1024]⟩
abbrev S1x16x1x512 : Shape := ⟨4, ![1, 16, 1, 512]⟩
abbrev S1x1x64x512 : Shape := ⟨4, ![1, 1, 64, 512]⟩
abbrev S1x16x64x1024 : Shape := ⟨4, ![1, 16, 64, 1024]⟩
abbrev S64x640 : Shape := ⟨2, ![64, 640]⟩
abbrev S64x512 : Shape := ⟨2, ![64, 512]⟩
abbrev S1x640 : Shape := ⟨2, ![1, 640]⟩
abbrev S16x512 : Shape := ⟨2, ![16, 512]⟩
abbrev S16x640 : Shape := ⟨2, ![16, 640]⟩
abbrev S16x1x640 : Shape := ⟨3, ![16, 1, 640]⟩
abbrev S1x64x640 : Shape := ⟨3, ![1, 64, 640]⟩
abbrev S16x64x640 : Shape := ⟨3, ![16, 64, 640]⟩
abbrev S1024x1024 : Shape := ⟨2, ![1024, 1024]⟩
abbrev S16x64x1024 : Shape := ⟨3, ![16, 64, 1024]⟩
abbrev S1x1x1024 : Shape := ⟨3, ![1, 1, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8x256x1x512, .f32⟩
  | .hbm, ⟨1, _⟩ => ⟨S8x1x64x512, .f32⟩
  | .hbm, ⟨2, _⟩ => ⟨S640x512, .f32⟩
  | .hbm, ⟨3, _⟩ => ⟨S640, .f32⟩
  | .hbm, ⟨4, _⟩ => ⟨S640x512, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S640x512, .bf16⟩
  | .hbm, ⟨9, _⟩ => ⟨S512x640, .bf16⟩
  | .hbm, ⟨10, _⟩ => ⟨S640x512, .bf16⟩
  | .hbm, ⟨11, _⟩ => ⟨S512x640, .bf16⟩
  | .hbm, ⟨12, _⟩ => ⟨S1024x640, .bf16⟩
  | .hbm, ⟨13, _⟩ => ⟨S640x1024, .bf16⟩
  | .hbm, ⟨14, _⟩ => ⟨S8x256x64x1024, .f32⟩
  | .local _ .vmem, ⟨0, _⟩ => ⟨S1x16x1x512, .f32⟩
  | .local _ .vmem, ⟨1, _⟩ => ⟨S1x16x1x512, .f32⟩
  | .local _ .vmem, ⟨2, _⟩ => ⟨S1x1x64x512, .f32⟩
  | .local _ .vmem, ⟨3, _⟩ => ⟨S1x1x64x512, .f32⟩
  | .local _ .vmem, ⟨4, _⟩ => ⟨S512x640, .bf16⟩
  | .local _ .vmem, ⟨5, _⟩ => ⟨S640, .f32⟩
  | .local _ .vmem, ⟨6, _⟩ => ⟨S512x640, .bf16⟩
  | .local _ .vmem, ⟨7, _⟩ => ⟨S640, .f32⟩
  | .local _ .vmem, ⟨8, _⟩ => ⟨S640x1024, .bf16⟩
  | .local _ .vmem, ⟨9, _⟩ => ⟨S1024, .f32⟩
  | .local _ .vmem, ⟨10, _⟩ => ⟨S1x16x64x1024, .f32⟩
  | .local _ .vmem, ⟨11, _⟩ => ⟨S1x16x64x1024, .f32⟩
  | .local _ .vmem, ⟨12, _⟩ => ⟨S64x640, .f32⟩
  | _, _ => ⟨S8x256x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S640x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  transposes_S640x512_S512x640_1_0 : S640x512.Transposes [1, 0] S512x640
  transposes_S1024x640_S640x1024_1_0 : S1024x640.Transposes [1, 0] S640x1024
  inb_S1x1x64x512_S1x1x64x512_0_0_0_0 : ∀ a, (![0, 0, 0, 0] : Fin 4 → Nat) a + S1x1x64x512.size a ≤ S1x1x64x512.size a
  h_S1x1x64x512 : 0 < S1x1x64x512.numel
  shapeCasts_S1x1x64x512_S64x512 : S1x1x64x512.ShapeCasts S64x512
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S640_S640_0 : ∀ a, (![0] : Fin 1 → Nat) a + S640.size a ≤ S640.size a
  h_S640 : 0 < S640.numel
  shapeCasts_S640_S1x640 : S640.ShapeCasts S1x640
  broadcasts_S1x640_S64x640 : S1x640.Broadcasts S64x640
  inb_S64x640_S64x640_0_0 : ∀ a, (![0, 0] : Fin 2 → Nat) a + S64x640.size a ≤ S64x640.size a
  h_S64x640 : 0 < S64x640.numel
  shapeCasts_S64x640_S64x640 : S64x640.ShapeCasts S64x640
  inb_S1x16x1x512_S1x16x1x512_0_0_0_0 : ∀ a, (![0, 0, 0, 0] : Fin 4 → Nat) a + S1x16x1x512.size a ≤ S1x16x1x512.size a
  h_S1x16x1x512 : 0 < S1x16x1x512.numel
  shapeCasts_S1x16x1x512_S16x512 : S1x16x1x512.ShapeCasts S16x512
  broadcasts_S1x640_S16x640 : S1x640.Broadcasts S16x640
  shapeCasts_S16x640_S16x1x640 : S16x640.ShapeCasts S16x1x640
  shapeCasts_S64x640_S1x64x640 : S64x640.ShapeCasts S1x64x640
  broadcasts_S16x1x640_S16x64x640 : S16x1x640.Broadcasts S16x64x640
  broadcasts_S1x64x640_S16x64x640 : S1x64x640.Broadcasts S16x64x640
  shapeCasts_S16x64x640_S1024x640 : S16x64x640.ShapeCasts S1024x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  shapeCasts_S1024x1024_S16x64x1024 : S1024x1024.ShapeCasts S16x64x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S16x64x1024 : S1x1x1024.Broadcasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S64x512_S512x640_S64x640_1_0_0_1_n_n_wf : DotDims.WF S64x512 S512x640 S64x640 [1] [0] [0] [1] [] []
  dot_S16x512_S512x640_S16x640_1_0_0_1_n_n_wf : DotDims.WF S16x512 S512x640 S16x640 [1] [0] [0] [1] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1x512.size a ≤ S8x256x1x512.size a
  hwx0_0 : ∀ i : grid0.Coords, EltTy.bits .f32 = 32 ∨ (Rect.block (s := S8x256x1x512) S1x16x1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x512.size a ≤ S8x1x64x512.size a
  hwx0_1 : ∀ i : grid0.Coords, EltTy.bits .f32 = 32 ∨ (Rect.block (s := S8x1x64x512) S1x1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x640.size a ≤ S512x640.size a
  hwx0_2 : ∀ i : grid0.Coords, EltTy.bits .bf16 = 32 ∨ (Rect.block (s := S512x640) S512x640.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640.size a ≤ S640.size a
  hwx0_3 : ∀ i : grid0.Coords, EltTy.bits .f32 = 32 ∨ (Rect.block (s := S640) S640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x640.size a ≤ S512x640.size a
  hwx0_4 : ∀ i : grid0.Coords, EltTy.bits .bf16 = 32 ∨ (Rect.block (s := S512x640) S512x640.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S640.size a ≤ S640.size a
  hwx0_5 : ∀ i : grid0.Coords, EltTy.bits .f32 = 32 ∨ (Rect.block (s := S640) S640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S640x1024.size a ≤ S640x1024.size a
  hwx0_6 : ∀ i : grid0.Coords, EltTy.bits .bf16 = 32 ∨ (Rect.block (s := S640x1024) S640x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x64x1024.size a ≤ S8x256x64x1024.size a
  hwx0_8 : ∀ i : grid0.Coords, EltTy.bits .f32 = 32 ∨ (Rect.block (s := S8x256x64x1024) S1x16x64x1024.size (cc0_transform_8 i) (hinb0_8 i)).WholeWords (EltTy.packing .f32)

variable [Facts₀]

def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S16x512_S512x640_S16x640_1_0_0_1_n_n : DotDims S16x512 S512x640 S16x640 where
  lhsContracting := [1]
  rhsContracting := [0]
  lhsNonContracting := [0]
  rhsNonContracting := [1]
  lhsBatch := []
  rhsBatch := []
  wf := dot_S16x512_S512x640_S16x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_arg0) S1x16x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S640x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x16x64x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x256x1x512 : Shape := ⟨4, ![8, 256, 1, 512]⟩
abbrev S8x1x64x512 : Shape := ⟨4, ![8, 1, 64, 512]⟩
abbrev S640x512 : Shape := ⟨2, ![640, 512]⟩
abbrev S640 : Shape := ⟨1, ![640]⟩
abbrev S1024x640 : Shape := ⟨2, ![1024, 640]⟩
abbrev S1024 : Shape := ⟨1, ![1024]⟩
abbrev S8x256x1x640 : Shape := ⟨4, ![8, 256, 1, 640]⟩
abbrev S1x1x1x640 : Shape := ⟨4, ![1, 1, 1, 640]⟩
abbrev S8x1x64x640 : Shape := ⟨4, ![8, 1, 64, 640]⟩
abbrev S8x256x64x640 : Shape := ⟨4, ![8, 256, 64, 640]⟩
abbrev S8x256x64x1024 : Shape := ⟨4, ![8, 256, 64, 1024]⟩
abbrev S1x1x1x1024 : Shape := ⟨4, ![1, 1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1x512, .f32⟩
  | .hbm, ⟨1, _⟩ => ⟨S8x1x64x512, .f32⟩
  | .hbm, ⟨2, _⟩ => ⟨S640x512, .f32⟩
  | .hbm, ⟨3, _⟩ => ⟨S640, .f32⟩
  | .hbm, ⟨4, _⟩ => ⟨S640x512, .f32⟩
  | .hbm, ⟨5, _⟩ => ⟨S640, .f32⟩
  | .hbm, ⟨6, _⟩ => ⟨S1024x640, .f32⟩
  | .hbm, ⟨7, _⟩ => ⟨S1024, .f32⟩
  | .hbm, ⟨8, _⟩ => ⟨S8x256x1x640, .f32⟩
  | .hbm, ⟨9, _⟩ => ⟨S1x1x1x640, .f32⟩
  | .hbm, ⟨10, _⟩ => ⟨S8x256x1x640, .f32⟩
  | .hbm, ⟨11, _⟩ => ⟨S8x256x1x640, .f32⟩
  | .hbm, ⟨12, _⟩ => ⟨S8x1x64x640, .f32⟩
  | .hbm, ⟨13, _⟩ => ⟨S1x1x1x640, .f32⟩
  | .hbm, ⟨14, _⟩ => ⟨S8x1x64x640, .f32⟩
  | .hbm, ⟨15, _⟩ => ⟨S8x1x64x640, .f32⟩
  | .hbm, ⟨16, _⟩ => ⟨S8x256x64x640, .f32⟩
  | .hbm, ⟨17, _⟩ => ⟨S8x256x64x640, .f32⟩
  | .hbm, ⟨18, _⟩ => ⟨S8x256x64x640, .f32⟩
  | .hbm, ⟨19, _⟩ => ⟨S8x256x64x640, .f32⟩
  | .hbm, ⟨20, _⟩ => ⟨S8x256x64x1024, .f32⟩
  | .hbm, ⟨21, _⟩ => ⟨S1x1x1x1024, .f32⟩
  | .hbm, ⟨22, _⟩ => ⟨S8x256x64x1024, .f32⟩
  | .hbm, ⟨23, _⟩ => ⟨S8x256x64x1024, .f32⟩
  | _, _ => ⟨S8x256x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S640_S1x1x1x640_3 : S640.BroadcastsInDim S1x1x1x640 (![3] : Fin 1 → Fin S1x1x1x640.rank)
  bcast_S1x1x1x640_S8x256x1x640_0_1_2_3 : S1x1x1x640.BroadcastsInDim S8x256x1x640 (![0, 1, 2, 3] : Fin 4 → Fin S8x256x1x640.rank)
  bcast_S1x1x1x640_S8x1x64x640_0_1_2_3 : S1x1x1x640.BroadcastsInDim S8x1x64x640 (![0, 1, 2, 3] : Fin 4 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x1x512_S640x512_S8x256x1x640_3_1_012_0_n_n_wf : DotDims.WF S8x256x1x512 S640x512 S8x256x1x640 [3] [1] [0, 1, 2] [0] [] []
  dot_S8x1x64x512_S640x512_S8x1x64x640_3_1_012_0_n_n_wf : DotDims.WF S8x1x64x512 S640x512 S8x1x64x640 [3] [1] [0, 1, 2] [0] [] []
  dot_S8x256x64x640_S1024x640_S8x256x64x1024_3_1_012_0_n_n_wf : DotDims.WF S8x256x64x640 S1024x640 S8x256x64x1024 [3] [1] [0, 1, 2] [0] [] []

variable [Facts₀]

def dot_S8x256x1x512_S640x512_S8x256x1x640_3_1_012_0_n_n : DotDims S8x256x1x512 S640x512 S8x256x1x640 where
  lhsContracting := [3]
  rhsContracting := [1]
  lhsNonContracting := [0, 1, 2]
  rhsNonContracting := [0]
  lhsBatch := []
  rhsBatch := []
  wf := dot_S8x256x1x512_S640x512_S8x256x1x640_3_1_012_0_n_n_wf
def dot_S8x1x64x512_S640x512_S8x1x64x640_3_1_012_0_n_n : DotDims S8x1x64x512 S640x512 S8x1x64x640 where
  lhsContracting := [3]
  rhsContracting := [1]
  lhsNonContracting := [0, 1, 2]
  rhsNonContracting := [0]
  lhsBatch := []
  rhsBatch := []
  wf := dot_S8x1x64x512_S640x512_S8x1x64x640_3_1_012_0_n_n_wf
def dot_S8x256x64x640_S1024x640_S8x256x64x1024_3_1_012_0_n_n : DotDims S8x256x64x640 S1024x640 S8x256x64x1024 where
  lhsContracting := [3]
  rhsContracting := [1]
  lhsNonContracting := [0, 1, 2]
  rhsNonContracting := [0]
  lhsBatch := []
  rhsBatch := []
  wf := dot_S8x256x64x640_S1024x640_S8x256x64x1024_3_1_012_0_n_n_wf

class Facts : Prop extends Facts₀ where

variable [Facts]
-- ==== Proof.JointSpec.lean ====
/-
  The joint network of a transducer, as ONE function of its eight argument arrays on the extended reals.

  For a batch entry `b`, an encoder frame `t`, a decoder position `u` and a vocabulary entry `v`:

    encProj b t j = (∑ d, enc (b, t, 0, d) · W_enc (j, d)) + b_enc j          -- the encoder row projected into the joint space
    decProj b u j = (∑ d, dec (b, 0, u, d) · W_dec (j, d)) + b_dec j          -- the decoder row projected into the joint space
    joint b t u j = tanh (encProj b t j + decProj b u j)
    out (b, t, u, v) = (∑ j, joint b t u j · W_out (v, j)) + b_out v

  Each sum is written with the weight matrix in the orientation the arguments have it (rows indexed by the output
  coordinate), and each bias is added AFTER its sum: no product is distributed over a sum and nothing is cancelled, so
  the formula needs no finiteness of the entries.
-/
import Idealize.ShloMosaic.PureOps.Ideal
import Idealize.ShloMosaic.Lib.ValueIdx

noncomputable section

open scoped BigOperators

namespace Cert.JointSpec

open Idealize.ShloMosaic Idealize.ShloMosaic.ValueIdx

/-- The encoder's rows: [batch 8, frames 256, 1, features 512]. -/
abbrev SEnc : Shape := ⟨4, ![8, 256, 1, 512]⟩
/-- The decoder's rows: [batch 8, 1, positions 64, features 512]. -/
abbrev SDec : Shape := ⟨4, ![8, 1, 64, 512]⟩
/-- A projection into the joint space: [joint 640, features 512]. -/
abbrev SProj : Shape := ⟨2, ![640, 512]⟩
/-- A bias of the joint space. -/
abbrev SJoint : Shape := ⟨1, ![640]⟩
/-- The output projection: [vocabulary 1024, joint 640]. -/
abbrev SVocProj : Shape := ⟨2, ![1024, 640]⟩
/-- The output bias. -/
abbrev SVoc : Shape := ⟨1, ![1024]⟩
/-- The result: [batch 8, frames 256, positions 64, vocabulary 1024]. -/
abbrev SOut : Shape := ⟨4, ![8, 256, 64, 1024]⟩

/-- Row `(b, t)` of the encoder projected into the joint space, coordinate `j`. -/
def encProj (enc : FVec Ideal SEnc .f32) (wE : FVec Ideal SProj .f32) (bE : FVec Ideal SJoint .f32)
    (b : Fin 8) (t : Fin 256) (j : Fin 640) : EReal :=
  (∑ d : Fin 512, enc (ix4 b t 0 d) * wE (ix2 j d)) + bE (ix1 j)

/-- Row `(b, u)` of the decoder projected into the joint space, coordinate `j`. -/
def decProj (dec : FVec Ideal SDec .f32) (wD : FVec Ideal SProj .f32) (bD : FVec Ideal SJoint .f32)
    (b : Fin 8) (u : Fin 64) (j : Fin 640) : EReal :=
  (∑ d : Fin 512, dec (ix4 b 0 u d) * wD (ix2 j d)) + bD (ix1 j)

/-- The joint activation at `(b, t, u)`, coordinate `j`, given the two projections. -/
def joint (eP : Fin 8 → Fin 256 → Fin 640 → EReal) (dP : Fin 8 → Fin 64 → Fin 640 → EReal)
    (b : Fin 8) (t : Fin 256) (u : Fin 64) (j : Fin 640) : EReal :=
  Ideal.tanh (eP b t j + dP b u j)

/-- The network's result, index by index. -/
def out (enc : FVec Ideal SEnc .f32) (dec : FVec Ideal SDec .f32) (wE : FVec Ideal SProj .f32) (bE : FVec Ideal SJoint .f32)
    (wD : FVec Ideal SProj .f32) (bD : FVec Ideal SJoint .f32) (wO : FVec Ideal SVocProj .f32) (bO : FVec Ideal SVoc .f32) :
    FVec Ideal SOut .f32 := fun i =>
  (∑ j : Fin 640, joint (encProj enc wE bE) (decProj dec wD bD) (i 0) (i 1) (i 2) j * wO (ix2 (i 3) j)) + bO (ix1 (i 3))

end Cert.JointSpec

end
-- ==== Proof.LibJointLayout.lean ====
/-
  Layout operations of small ranks read at coordinates: the casts and broadcasts a kernel uses to pair every row of
  one matrix with every row of another and to flatten the pairs into the rows of one matrix.

  A shape cast reads the operand at the index with the same row-major position, a broadcast at the index whose
  coordinates on the operand's unit axes are `0`. Stated here over arbitrary extents, with both indices written by
  their coordinates:

    unit axes dropped            [1, 1, a, b] → [a, b],   [1, a, 1, b] → [a, b]
    a unit axis put in the middle [a, c] → [a, 1, c]
    two leading unit axes added   [c] → [1, 1, c]
    a matrix's rows repeated      [a, 1, c] → [a, b, c]  (along the new middle axis),  [1, b, c] → [a, b, c]  (along the new leading axis)
    a vector repeated             [1, 1, c] → [a, b, c]
    pairs flattened and restored  [a, b, c] → [n, c]  and  [n, c] → [a, b, c]  with  n = a · b : row  i · b + k  is the pair  (i, k).

  Imports only the library.
-/
import Idealize.ShloMosaic.Lib.Pipeline.Value
import Idealize.ShloMosaic.Lib.ValueIdx

namespace Idealize.ShloMosaic.JointLayout

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A `[1, a, 1, b]` array cast to `[a, b]` reads, at `(i, j)`, the operand at `(0, i, 0, j)`. -/
theorem shapeCast_1a1b_ab_apply {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.add_zero, Nat.mul_one])

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- A `[c]` array cast to `[1, 1, c]` reads, at `(u, w, j)`, the operand at `j`. -/
theorem shapeCast_c_11c_apply {c : ℕ} (x : (⟨1, ![c]⟩ : Shape).Idx → α)
    (h : (⟨1, ![c]⟩ : Shape).ShapeCasts ⟨3, ![1, 1, c]⟩) (u w : Fin 1) (j : Fin c) :
    shapeCast ⟨3, ![1, 1, c]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * c + j.val
    simp only [hu, hw, Nat.zero_mul, Nat.zero_add, Nat.mul_one])

/-- An `[a, 1, c]` array broadcast to `[a, b, c]` reads, at `(i, k, j)`, the operand at `(i, 0, j)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- An `[a, b, c]` array cast to `[n, c]` reads, at row `r = i · b + k` and column `j`, the operand at `(i, k, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (i : Fin a) (k : Fin b) (j : Fin c)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[n, c]` array cast to `[a, b, c]` reads, at `(i, k, j)`, the operand at row `r = i · b + k` and column `j`. -/
theorem shapeCast_nc_abc_apply {a b c n : ℕ} (x : (⟨2, ![n, c]⟩ : Shape).Idx → α)
    (h : (⟨2, ![n, c]⟩ : Shape).ShapeCasts ⟨3, ![a, b, c]⟩) (r : Fin n) (i : Fin a) (k : Fin b) (j : Fin c)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

end Idealize.ShloMosaic.JointLayout
-- ==== Proof.LibMatmulRowsByCols.lean ====
/-
  A matrix product into the zero accumulator, read at an entry.

  On the extended reals a `tpu.matmul` of an `[M, K]` left operand and a `[K, N]` right operand (the contraction on the
  left's second axis and the right's first, no batch axis), accumulated into the zero splat, is at entry `(p, q)` the
  plain sum `∑ₖ l(p, k) · r(k, q)`: no rounding, no order of accumulation. The dimension record is kept abstract; what
  is asked of it is that it contracts one axis of extent `K` and reads its operands at `(p, k)` and `(k, q)`, four
  facts a concrete record gives by unfolding. Imports only the library.
-/
import Idealize.ShloMosaic.PureOps.Ideal.Laws
import Idealize.ShloMosaic.Lib.ValueIdx

namespace Idealize.ShloMosaic.MatmulRowsByCols

open Idealize.ShloMosaic Idealize.ShloMosaic.ValueIdx

/-- `matmul D prec l r 0` at `(p, q)` is `∑ k, l (p, k) * r (k, q)`. -/
theorem matmul_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂)
    (p : Fin M) (q : Fin N) :
    matmul D prec l r (constant (F := Ideal) ⟨2, ![M, N]⟩ .f32 0x00000000#32) (ix2 p q)
      = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulRowsByCols
-- ==== Proof.JointBody.lean ====
/-
  The kernel body's two stored values, read at one entry on the extended reals.

  The first (stored into the carried scratch at the first frame tile of a batch entry) is the decoder block projected
  into the joint space: at `(u, j)` the sum over the feature axis of `dec (0, 0, u, d) · w (d, j)` plus the bias at
  `j`, the weight block being indexed [feature, joint].

  The second (the output block) at `(0, p, u, v)`: project row `p` of the encoder block the same way, add row `u` of the
  scratch, take `tanh`, contract the joint axis against the output weight block [joint, vocabulary], add the output
  bias at `v`. The changes of float format are the identity, each matrix product runs into the zero accumulator and
  is a plain sum, and the casts and broadcasts only move coordinates: row `p · 64 + u` of the flattened pair matrix is
  the pair `(p, u)`.
-/
import proofs.«178111_j59871844106969_1_alg».proof.Proof.Gen.KernelIdeal.Skeleton
import proofs.«178111_j59871844106969_1_alg».proof.Proof.LibJointLayout
import proofs.«178111_j59871844106969_1_alg».proof.Proof.LibMatmulRowsByCols
import Idealize.ShloMosaic.Lib.ValueLayout
import Idealize.ShloMosaic.Lib.Pipeline.Value

noncomputable section

open scoped BigOperators

namespace Cert.JointBody

open Cert.KernelIdeal Cert.KernelIdeal.Gen Idealize.ShloMosaic Idealize.ShloMosaic.ValueIdx
open Idealize.ShloMosaic.JointLayout Idealize.ShloMosaic.MatmulRowsByCols

/-! ## The three matrix products at an entry -/

/-- The decoder projection's product: `[64, 512] · [512, 640]` at `(u, j)`. -/
theorem matmul_dec (l : FVec Ideal S64x512 .bf16) (r : FVec Ideal S512x640 .bf16) (u : Fin 64) (j : Fin 640) :
    matmul dot_S64x512_S512x640_S64x640_1_0_0_1_n_n none l r (constant (F := Ideal) S64x640 .f32 0x00000000#32) (ix2 u j)
      = ∑ d : Fin 512, l (ix2 u d) * r (ix2 d j) :=
  matmul_zero_apply dot_S64x512_S512x640_S64x640_1_0_0_1_n_n rfl rfl
    (fun i q => by
      unfold DotDims.lhsIdx
      rw [dif_neg (show ¬(0 : Fin S64x512.rank) ∈ dot_S64x512_S512x640_S64x640_1_0_0_1_n_n.lhsBatch by decide),
        dif_pos (show (0 : Fin S64x512.rank) ∈ dot_S64x512_S512x640_S64x640_1_0_0_1_n_n.lhsNonContracting by decide)]
      rfl)
    (fun i q => dot_S64x512_S512x640_S64x640_1_0_0_1_n_n.lhsIdx_val_of_single rfl i q)
    (fun i q => dot_S64x512_S512x640_S64x640_1_0_0_1_n_n.rhsIdx_val_of_single rfl i q)
    (fun i q => by
      unfold DotDims.rhsIdx
      rw [dif_neg (show ¬(1 : Fin S512x640.rank) ∈ dot_S64x512_S512x640_S64x640_1_0_0_1_n_n.rhsBatch by decide),
        dif_pos (show (1 : Fin S512x640.rank) ∈ dot_S64x512_S512x640_S64x640_1_0_0_1_n_n.rhsNonContracting by decide)]
      rfl)
    none l r u j

/-- The encoder projection's product: `[16, 512] · [512, 640]` at `(p, j)`. -/
theorem matmul_enc (l : FVec Ideal S16x512 .bf16) (r : FVec Ideal S512x640 .bf16) (p : Fin 16) (j : Fin 640) :
    matmul dot_S16x512_S512x640_S16x640_1_0_0_1_n_n none l r (constant (F := Ideal) S16x640 .f32 0x00000000#32) (ix2 p j)
      = ∑ d : Fin 512, l (ix2 p d) * r (ix2 d j) :=
  matmul_zero_apply dot_S16x512_S512x640_S16x640_1_0_0_1_n_n rfl rfl
    (fun i q => by
      unfold DotDims.lhsIdx
      rw [dif_neg (show ¬(0 : Fin S16x512.rank) ∈ dot_S16x512_S512x640_S16x640_1_0_0_1_n_n.lhsBatch by decide),
        dif_pos (show (0 : Fin S16x512.rank) ∈ dot_S16x512_S512x640_S16x640_1_0_0_1_n_n.lhsNonContracting by decide)]
      rfl)
    (fun i q => dot_S16x512_S512x640_S16x640_1_0_0_1_n_n.lhsIdx_val_of_single rfl i q)
    (fun i q => dot_S16x512_S512x640_S16x640_1_0_0_1_n_n.rhsIdx_val_of_single rfl i q)
    (fun i q => by
      unfold DotDims.rhsIdx
      rw [dif_neg (show ¬(1 : Fin S512x640.rank) ∈ dot_S16x512_S512x640_S16x640_1_0_0_1_n_n.rhsBatch by decide),
        dif_pos (show (1 : Fin S512x640.rank) ∈ dot_S16x512_S512x640_S16x640_1_0_0_1_n_n.rhsNonContracting by decide)]
      rfl)
    none l r p j

/-- The output projection's product: `[1024, 640] · [640, 1024]` at `(r, v)`. -/
theorem matmul_out (l : FVec Ideal S1024x640 .bf16) (w : FVec Ideal S640x1024 .bf16) (r : Fin 1024) (v : Fin 1024) :
    matmul dot_S1024x640_S640x1024_S1024x1024_1_0_0_1_n_n none l w (constant (F := Ideal) S1024x1024 .f32 0x00000000#32) (ix2 r v)
      = ∑ j : Fin 640, l (ix2 r j) * w (ix2 j v) :=
  matmul_zero_apply dot_S1024x640_S640x1024_S1024x1024_1_0_0_1_n_n rfl rfl
    (fun i q => by
      unfold DotDims.lhsIdx
      rw [dif_neg (show ¬(0 : Fin S1024x640.rank) ∈ dot_S1024x640_S640x1024_S1024x1024_1_0_0_1_n_n.lhsBatch by decide),
        dif_pos (show (0 : Fin S1024x640.rank) ∈ dot_S1024x640_S640x1024_S1024x1024_1_0_0_1_n_n.lhsNonContracting by decide)]
      rfl)
    (fun i q => dot_S1024x640_S640x1024_S1024x1024_1_0_0_1_n_n.lhsIdx_val_of_single rfl i q)
    (fun i q => dot_S1024x640_S640x1024_S1024x1024_1_0_0_1_n_n.rhsIdx_val_of_single rfl i q)
    (fun i q => by
      unfold DotDims.rhsIdx
      rw [dif_neg (show ¬(1 : Fin S640x1024.rank) ∈ dot_S1024x640_S640x1024_S1024x1024_1_0_0_1_n_n.rhsBatch by decide),
        dif_pos (show (1 : Fin S640x1024.rank) ∈ dot_S1024x640_S640x1024_S1024x1024_1_0_0_1_n_n.rhsNonContracting by decide)]
      rfl)
    none l w r v

/-! ## The scratch's value -/

/-- The value stored into the scratch, at `(u, j)`. -/
theorem pay1_apply (v33 : FVec Ideal S1x1x64x512 .f32) (v36 : FVec Ideal S512x640 .bf16) (v39 : FVec Ideal S640 .f32)
    (u : Fin 64) (j : Fin 640) :
    k0_pay1 (F := Ideal) v33 v36 v39 (ix2 u j)
      = (∑ d : Fin 512, v33 (ix4 (0 : Fin 1) (0 : Fin 1) u d) * v36 (ix2 d j)) + v39 (ix1 j) := by
  unfold k0_pay1
  refine (congrFun (shapeCast_self _ _) (ix2 u j)).trans ?_
  refine (addf_apply _ _ _).trans ?_
  refine congrArg₂ (· + ·) ?_ ?_
  · refine (matmul_dec _ _ u j).trans (Finset.sum_congr rfl fun d _ => ?_)
    refine congrArg₂ (· * ·) ?_ ?_
    · exact shapeCast_11ab_ab_apply v33 _ u d
    · exact congrFun (shapeCast_self _ _) (ix2 d j)
  · exact (broadcastTo_1b_ab_apply _ _ u j).trans (shapeCast_a_1a_apply v39 _ 0 j)

/-! ## The output block's value -/

/-- Row `p` of a [16, 512] block projected through a [512, 640] weight block, plus the bias: the sum at `(p, j)`. -/
theorem rowProj_apply (v3 : FVec Ideal S1x16x1x512 .f32) (v6 : FVec Ideal S512x640 .bf16) (v9 : FVec Ideal S640 .f32)
    (h1 : S1x16x1x512.ShapeCasts S16x512) (h2 : FTy.bf16.bits < FTy.f32.bits) (h3 : S512x640.ShapeCasts S512x640)
    (h4 : S640.ShapeCasts S1x640) (h5 : S1x640.Broadcasts S16x640) (p : Fin 16) (j : Fin 640) :
    addf (matmul dot_S16x512_S512x640_S16x640_1_0_0_1_n_n none (truncf .bf16 (shapeCast S16x512 v3 h1) h2) (shapeCast S512x640 v6 h3)
        (constant (F := Ideal) S16x640 .f32 0x00000000#32)) (broadcastTo S16x640 (shapeCast S1x640 v9 h4) h5) (ix2 p j)
      = (∑ d : Fin 512, v3 (ix4 (0 : Fin 1) p (0 : Fin 1) d) * v6 (ix2 d j)) + v9 (ix1 j) := by
  refine (addf_apply _ _ _).trans ?_
  refine congrArg₂ (· + ·) ?_ ?_
  · refine (matmul_enc _ _ p j).trans (Finset.sum_congr rfl fun d _ => ?_)
    refine congrArg₂ (· * ·) ?_ ?_
    · exact shapeCast_1a1b_ab_apply v3 h1 p d
    · exact congrFun (shapeCast_self _ _) (ix2 d j)
  · exact (broadcastTo_1b_ab_apply _ _ p j).trans (shapeCast_a_1a_apply v9 _ 0 j)

/-- The value stored into the output block, at `(0, p, u, v)`. -/
theorem pay2_apply (v3 : FVec Ideal S1x16x1x512 .f32) (v6 : FVec Ideal S512x640 .bf16) (v9 : FVec Ideal S640 .f32)
    (v13 : FVec Ideal S64x640 .f32) (v22 : FVec Ideal S640x1024 .bf16) (v26 : FVec Ideal S1024 .f32)
    (p : Fin 16) (u : Fin 64) (v : Fin 1024) :
    k0_pay2 (F := Ideal) v3 v6 v9 v13 v22 v26 (ix4 (0 : Fin 1) p u v)
      = (∑ j : Fin 640, Ideal.tanh (((∑ d : Fin 512, v3 (ix4 (0 : Fin 1) p (0 : Fin 1) d) * v6 (ix2 d j)) + v9 (ix1 j))
            + v13 (ix2 u j)) * v22 (ix2 j v)) + v26 (ix1 v) := by
  -- the row of the flattened pair matrix that holds the pair (p, u)
  have hlt : p.val * 64 + u.val < 1024 := by have := p.isLt; have := u.isLt; omega
  unfold k0_pay2
  refine (shapeCast_abc_1abc_apply _ _ (0 : Fin 1) p u v).trans ?_
  refine (addf_apply _ _ _).trans ?_
  refine congrArg₂ (· + ·) ?_ ?_
  · refine (shapeCast_nc_abc_apply _ _ (⟨p.val * 64 + u.val, hlt⟩ : Fin 1024) p u v rfl).trans ?_
    refine (matmul_out _ _ _ v).trans (Finset.sum_congr rfl fun j _ => ?_)
    refine congrArg₂ (· * ·) ?_ ?_
    · refine (shapeCast_abc_nc_apply _ _ (⟨p.val * 64 + u.val, hlt⟩ : Fin 1024) p u j rfl).trans ?_
      show Ideal.tanh _ = Ideal.tanh _
      refine congrArg Ideal.tanh ?_
      refine (addf_apply _ _ _).trans ?_
      refine congrArg₂ (· + ·) ?_ ?_
      · refine (broadcastTo_a1c_abc_apply _ _ p u j).trans ?_
        refine (shapeCast_ac_a1c_apply _ _ p (0 : Fin 1) j).trans ?_
        exact rowProj_apply v3 v6 v9 _ _ _ _ _ p j
      · exact (broadcastTo_1bc_abc_apply _ _ p u j).trans (shapeCast_ab_1ab_apply v13 _ (0 : Fin 1) u j)
    · exact congrFun (shapeCast_self _ _) (ix2 j v)
  · exact (broadcastTo_11c_abc_apply _ _ p u v).trans (shapeCast_c_11c_apply v26 _ (0 : Fin 1) (0 : Fin 1) v)

end Cert.JointBody

end
-- ==== Proof.JointPieces.lean ====
/-
  What one run of the kernel body leaves behind, as values.

  The body has two control cases. At the first frame tile of a batch entry it stores the decoder projection into the
  scratch whole, reads it back, and stores the output block whole; at every other tile it only reads the scratch, as
  the tile before left it, and stores the output block whole. Each buffer ends with ONE covering store, so what it
  holds afterwards is that store's value:

    first tile:   scratch  = (decoder projection of the decoder block, its weight block and its bias)
                  output   = (output value of the encoder block …, with the scratch it has just written)
    other tiles:  scratch unchanged,  output = (output value …, with the scratch as it was found).

  The loads read whole staging buffers, so each loaded block is the buffer's contents. Stated for any float values.
-/
import proofs.«178111_j59871844106969_1_alg».proof.Proof.Gen.KernelIdeal.Frame
import Idealize.ShloMosaic.Lib.Pipeline.Value
import Idealize.ShloMosaic.Lib.Tactic

noncomputable section

namespace Cert.JointPieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz4 : (![0, 0, 0, 0] : Fin 4 → Nat) = fun _ => 0 := funext fun a => by fin_cases a <;> rfl

/-- FIRST TILE: the scratch ends at the decoder projection of the blocks the body loaded. -/
theorem scratch_A (c : Dev nD) (i : grid0.Coords) (arg2 : Memref sig .tc .vmem S1x16x1x512 .f32) (harg2 : arg2.IsWhole) (arg3 : Memref sig .tc .vmem S1x1x64x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S512x640 .bf16) (harg6 : arg6.IsWhole) (arg7 : Memref sig .tc .vmem S640 .f32) (harg7 : arg7.IsWhole) (arg8 : Memref sig .tc .vmem S640x1024 .bf16) (harg8 : arg8.IsWhole) (arg9 : Memref sig .tc .vmem S1024 .f32) (harg9 : arg9.IsWhole) (arg10 : Memref sig .tc .vmem S1x16x64x1024 .f32) (harg10 : arg10.IsWhole) (arg11 : Memref sig .tc .vmem S64x640 .f32) (harg11 : arg11.IsWhole) (hc0 : cond0_0 i) (x0 : Vec F S1x16x1x512 .f32) (x1 : Vec F S1x1x64x512 .f32) (x2 : Vec F S512x640 .bf16) (x3 : Vec F S640 .f32) (x4 : Vec F S512x640 .bf16) (x5 : Vec F S640 .f32) (x6 : Vec F S640x1024 .bf16) (x7 : Vec F S1024 .f32) :
    sout0_A_0 c i arg2 harg2 arg3 harg3 arg4 harg4 arg5 harg5 arg6 harg6 arg7 harg7 arg8 harg8 arg9 harg9 arg10 harg10 arg11 harg11 hc0 x0 x1 x2 x3 x4 x5 x6 x7 = k0_pay1 x1 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero (S := S64x640) hz2]
  simp only [View.readAt_eq_ld, harg2.read_unread, harg3.read_unread, harg4.read_unread, harg5.read_unread, harg6.read_unread, harg7.read_unread, harg8.read_unread, harg9.read_unread, harg11.read_unread, View.ld_unit_zero (S := S1x16x1x512) hz4, View.ld_unit_zero (S := S1x1x64x512) hz4, View.ld_unit_zero (S := S512x640) hz2, View.ld_unit_zero (S := S640) hz1, View.ld_unit_zero (S := S640x1024) hz2, View.ld_unit_zero (S := S1024) hz1, View.ld_unit_zero (S := S64x640) hz2]

/-- FIRST TILE: the output block ends at the output value computed with the scratch just written. -/
theorem out_A (c : Dev nD) (i : grid0.Coords) (arg2 : Memref sig .tc .vmem S1x16x1x512 .f32) (harg2 : arg2.IsWhole) (arg3 : Memref sig .tc .vmem S1x1x64x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S512x640 .bf16) (harg6 : arg6.IsWhole) (arg7 : Memref sig .tc .vmem S640 .f32) (harg7 : arg7.IsWhole) (arg8 : Memref sig .tc .vmem S640x1024 .bf16) (harg8 : arg8.IsWhole) (arg9 : Memref sig .tc .vmem S1024 .f32) (harg9 : arg9.IsWhole) (arg10 : Memref sig .tc .vmem S1x16x64x1024 .f32) (harg10 : arg10.IsWhole) (arg11 : Memref sig .tc .vmem S64x640 .f32) (harg11 : arg11.IsWhole) (hc0 : cond0_0 i) (x0 : Vec F S1x16x1x512 .f32) (x1 : Vec F S1x1x64x512 .f32) (x2 : Vec F S512x640 .bf16) (x3 : Vec F S640 .f32) (x4 : Vec F S512x640 .bf16) (x5 : Vec F S640 .f32) (x6 : Vec F S640x1024 .bf16) (x7 : Vec F S1024 .f32) :
    out0_A_8 c i arg2 harg2 arg3 harg3 arg4 harg4 arg5 harg5 arg6 harg6 arg7 harg7 arg8 harg8 arg9 harg9 arg10 harg10 arg11 harg11 hc0 x0 x1 x2 x3 x4 x5 x6 x7 = k0_pay2 x0 x2 x3 (k0_pay1 x1 x4 x5) x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero (S := S1x16x64x1024) hz4, View.readCov_unit_zero (S := S64x640) _ hz2]
  simp only [View.readAt_eq_ld, harg2.read_unread, harg3.read_unread, harg4.read_unread, harg5.read_unread, harg6.read_unread, harg7.read_unread, harg8.read_unread, harg9.read_unread, harg11.read_unread, View.ld_unit_zero (S := S1x16x1x512) hz4, View.ld_unit_zero (S := S1x1x64x512) hz4, View.ld_unit_zero (S := S512x640) hz2, View.ld_unit_zero (S := S640) hz1, View.ld_unit_zero (S := S640x1024) hz2, View.ld_unit_zero (S := S1024) hz1, View.ld_unit_zero (S := S64x640) hz2]

/-- OTHER TILES: the output block ends at the output value computed with the scratch as the tile found it. -/
theorem out_B (c : Dev nD) (i : grid0.Coords) (arg2 : Memref sig .tc .vmem S1x16x1x512 .f32) (harg2 : arg2.IsWhole) (arg3 : Memref sig .tc .vmem S1x1x64x512 .f32) (harg3 : arg3.IsWhole) (arg4 : Memref sig .tc .vmem S512x640 .bf16) (harg4 : arg4.IsWhole) (arg5 : Memref sig .tc .vmem S640 .f32) (harg5 : arg5.IsWhole) (arg6 : Memref sig .tc .vmem S512x640 .bf16) (harg6 : arg6.IsWhole) (arg7 : Memref sig .tc .vmem S640 .f32) (harg7 : arg7.IsWhole) (arg8 : Memref sig .tc .vmem S640x1024 .bf16) (harg8 : arg8.IsWhole) (arg9 : Memref sig .tc .vmem S1024 .f32) (harg9 : arg9.IsWhole) (arg10 : Memref sig .tc .vmem S1x16x64x1024 .f32) (harg10 : arg10.IsWhole) (arg11 : Memref sig .tc .vmem S64x640 .f32) (harg11 : arg11.IsWhole) (hc0 : ¬cond0_0 i) (x0 : Vec F S1x16x1x512 .f32) (x1 : Vec F S1x1x64x512 .f32) (x2 : Vec F S512x640 .bf16) (x3 : Vec F S640 .f32) (x4 : Vec F S512x640 .bf16) (x5 : Vec F S640 .f32) (x6 : Vec F S640x1024 .bf16) (x7 : Vec F S1024 .f32) (xs0 : Vec F S64x640 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xs0 = k0_pay2 x0 x2 x3 xs0 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xs0)]
  unfold kernelRun0_B
  dsimp only
  rw [View.canon_unit_zero (S := S1x16x64x1024) hz4]
  simp only [View.readAt_eq_ld, harg2.read_unread, harg3.read_unread, harg4.read_unread, harg5.read_unread, harg6.read_unread, harg7.read_unread, harg8.read_unread, harg9.read_unread, harg11.read_unread, View.ld_unit_zero (S := S1x16x1x512) hz4, View.ld_unit_zero (S := S1x1x64x512) hz4, View.ld_unit_zero (S := S512x640) hz2, View.ld_unit_zero (S := S640) hz1, View.ld_unit_zero (S := S640x1024) hz2, View.ld_unit_zero (S := S1024) hz1, View.ld_unit_zero (S := S64x640) hz2]

end Cert.JointPieces

end
-- ==== Proof.JointBlocks.lean ====
/-
  The blocks the kernel body loads, as entries of the program's arrays.

  The grid has 8 · 16 points; point `t` is batch entry `t / 16`, frame tile `t % 16`. At point `t`
    the encoder window holds rows `16 · (t % 16) … + 15` of batch entry `t / 16`,
    the decoder window holds all 64 rows of batch entry `t / 16`,
    the three weight windows and the three bias windows hold their whole arrays,
    the output window is rows `16 · (t % 16) … + 15` of batch entry `t / 16` of the result.
  A block's element `y` sits in the array at (block index) · (block size) + `y` on every axis.

  The three weight arrays the region finds were written by the host before it: each is the argument matrix
  converted to the short float format and transposed, so its entry `(d, j)` is the argument's entry `(j, d)`.
-/
import proofs.«178111_j59871844106969_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.JointBlocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- Every window's block index at point `t`, decided over the 128 points. -/
theorem idx_facts : ∀ t : Fin cfg0.N,
    (win0_0.index t (0 : Fin 4) = t.val / 16 ∧ win0_0.index t (1 : Fin 4) = t.val % 16 ∧ win0_0.index t (2 : Fin 4) = 0 ∧ win0_0.index t (3 : Fin 4) = 0)
    ∧ (win0_1.index t (0 : Fin 4) = t.val / 16 ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0)
    ∧ win0_3.index t (0 : Fin 1) = 0
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 4) = t.val / 16 ∧ win0_8.index t (1 : Fin 4) = t.val % 16 ∧ win0_8.index t (2 : Fin 4) = 0 ∧ win0_8.index t (3 : Fin 4) = 0) :=
  (by decide +kernel : ∀ t : Fin grid0.N, _)

/-- The encoder block at point `t`: its row `p` is row `16 · (t % 16) + p` of batch entry `t / 16`. -/
theorem enc_blk (c : Dev nD) (t : Fin cfg0.N) (p : Fin 16) (d : Fin 512) (b : Fin 8) (s : Fin 256)
    (hb : b.val = t.val / 16) (hs : s.val = t.val % 16 * 16 + p.val) :
    (iblk m c 0 t : Vec F S1x16x1x512 .f32) (ix4 (0 : Fin 1) p (0 : Fin 1) d) = m ((c : Thread nD τ).loc main_arg0) (ix4 b s (0 : Fin 1) d) := by
  obtain ⟨⟨e0, e1, e2, e3⟩, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = b.val; omega
  | ⟨1, _⟩ => show win0_0.index t (1 : Fin 4) * 16 + 1 * p.val = s.val; omega
  | ⟨2, _⟩ => show win0_0.index t (2 : Fin 4) * 1 + 1 * 0 = 0; omega
  | ⟨3, _⟩ => show win0_0.index t (3 : Fin 4) * 512 + 1 * d.val = d.val; omega

/-- The decoder block at point `t`: its row `u` is row `u` of batch entry `t / 16`. -/
theorem dec_blk (c : Dev nD) (t : Fin cfg0.N) (u : Fin 64) (d : Fin 512) (b : Fin 8) (hb : b.val = t.val / 16) :
    (iblk m c 1 t : Vec F S1x1x64x512 .f32) (ix4 (0 : Fin 1) (0 : Fin 1) u d) = m ((c : Thread nD τ).loc main_arg1) (ix4 b (0 : Fin 1) u d) := by
  obtain ⟨-, ⟨e0, e1, e2, e3⟩, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 4) * 1 + 1 * 0 = b.val; omega
  | ⟨1, _⟩ => show win0_1.index t (1 : Fin 4) * 1 + 1 * 0 = 0; omega
  | ⟨2, _⟩ => show win0_1.index t (2 : Fin 4) * 64 + 1 * u.val = u.val; omega
  | ⟨3, _⟩ => show win0_1.index t (3 : Fin 4) * 512 + 1 * d.val = d.val; omega

/-- The encoder weight window is its whole array, as the region finds it. -/
theorem wenc_blk (c : Dev nD) (t : Fin cfg0.N) (d : Fin 512) (j : Fin 640) :
    (iblk m c 2 t : Vec F S512x640 .bf16) (ix2 d j) = V m c main_v1 (ix2 d j) := by
  obtain ⟨-, -, ⟨e0, e1⟩, -⟩ := idx_facts t
  unfold iblk
  rw [View.read_apply]
  show V m c main_v1 _ = _
  refine congrArg _ (funext fun a => Fin.ext ?_)
  match a with
  | ⟨0, _⟩ => show win0_2.index t (0 : Fin 2) * 512 + 1 * d.val = d.val; omega
  | ⟨1, _⟩ => show win0_2.index t (1 : Fin 2) * 640 + 1 * j.val = j.val; omega

/-- The encoder bias window is its whole array. -/
theorem benc_blk (c : Dev nD) (t : Fin cfg0.N) (j : Fin 640) :
    (iblk m c 3 t : Vec F S640 .f32) (ix1 j) = m ((c : Thread nD τ).loc main_arg3) (ix1 j) := by
  obtain ⟨-, -, -, e0, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 1) * 640 + 1 * j.val = j.val; omega

/-- The decoder weight window is its whole array, as the region finds it. -/
theorem wdec_blk (c : Dev nD) (t : Fin cfg0.N) (d : Fin 512) (j : Fin 640) :
    (iblk m c 4 t : Vec F S512x640 .bf16) (ix2 d j) = V m c main_v3 (ix2 d j) := by
  obtain ⟨-, -, -, -, ⟨e0, e1⟩, -⟩ := idx_facts t
  unfold iblk
  rw [View.read_apply]
  show V m c main_v3 _ = _
  refine congrArg _ (funext fun a => Fin.ext ?_)
  match a with
  | ⟨0, _⟩ => show win0_4.index t (0 : Fin 2) * 512 + 1 * d.val = d.val; omega
  | ⟨1, _⟩ => show win0_4.index t (1 : Fin 2) * 640 + 1 * j.val = j.val; omega

/-- The decoder bias window is its whole array. -/
theorem bdec_blk (c : Dev nD) (t : Fin cfg0.N) (j : Fin 640) :
    (iblk m c 5 t : Vec F S640 .f32) (ix1 j) = m ((c : Thread nD τ).loc main_arg5) (ix1 j) := by
  obtain ⟨-, -, -, -, -, e0, -⟩ := idx_facts t
  unfold iblk
  rw [View.read_apply]
  show V m c main_arg5 _ = _
  rw [V_main_arg5]
  refine congrArg _ (funext fun a => Fin.ext ?_)
  match a with
  | ⟨0, _⟩ => show win0_5.index t (0 : Fin 1) * 640 + 1 * j.val = j.val; omega

/-- The output weight window is its whole array, as the region finds it. -/
theorem wout_blk (c : Dev nD) (t : Fin cfg0.N) (j : Fin 640) (v : Fin 1024) :
    (iblk m c 6 t : Vec F S640x1024 .bf16) (ix2 j v) = V m c main_v5 (ix2 j v) := by
  obtain ⟨-, -, -, -, -, -, ⟨e0, e1⟩, -⟩ := idx_facts t
  unfold iblk
  rw [View.read_apply]
  show V m c main_v5 _ = _
  refine congrArg _ (funext fun a => Fin.ext ?_)
  match a with
  | ⟨0, _⟩ => show win0_6.index t (0 : Fin 2) * 640 + 1 * j.val = j.val; omega
  | ⟨1, _⟩ => show win0_6.index t (1 : Fin 2) * 1024 + 1 * v.val = v.val; omega

/-- The output bias window is its whole array. -/
theorem bout_blk (c : Dev nD) (t : Fin cfg0.N) (v : Fin 1024) :
    (iblk m c 7 t : Vec F S1024 .f32) (ix1 v) = m ((c : Thread nD τ).loc main_arg7) (ix1 v) := by
  obtain ⟨-, -, -, -, -, -, -, e0, -⟩ := idx_facts t
  unfold iblk
  rw [View.read_apply]
  show V m c main_arg7 _ = _
  rw [V_main_arg7]
  refine congrArg _ (funext fun a => Fin.ext ?_)
  match a with
  | ⟨0, _⟩ => show win0_7.index t (0 : Fin 1) * 1024 + 1 * v.val = v.val; omega

/-! ## The weight arrays the host wrote before the region -/

/-- The encoder weight array the region finds: the argument converted and transposed. -/
theorem V_wenc (c : Dev nD) : (V m c main_v1 : S512x640.Idx → Elt F .bf16)
    = transpose S512x640 [1, 0] (truncf .bf16 (m ((c : Thread nD τ).loc main_arg2)) bitsLt_bf16_f32) transposes_S640x512_S512x640_1_0 := by
  dsimp only [Gen.V, Gen.hostOps0]; after_results

/-- The decoder weight array the region finds: the argument converted and transposed. -/
theorem V_wdec (c : Dev nD) : (V m c main_v3 : S512x640.Idx → Elt F .bf16)
    = transpose S512x640 [1, 0] (truncf .bf16 (m ((c : Thread nD τ).loc main_arg4)) bitsLt_bf16_f32) transposes_S640x512_S512x640_1_0 := by
  dsimp only [Gen.V, Gen.hostOps0]; after_results

/-- The output weight array the region finds: the argument converted and transposed. -/
theorem V_wout (c : Dev nD) : (V m c main_v5 : S640x1024.Idx → Elt F .bf16)
    = transpose S640x1024 [1, 0] (truncf .bf16 (m ((c : Thread nD τ).loc main_arg6)) bitsLt_bf16_f32) transposes_S1024x640_S640x1024_1_0 := by
  dsimp only [Gen.V, Gen.hostOps0]; after_results

end Cert.JointBlocks

end
-- ==== Proof.JointKernel.lean ====
/-
  The kernel's result array is the joint network of its arguments.

  The scratch. Points run batch entry by batch entry, frame tile by frame tile. The first tile of a batch entry writes
  the decoder projection of that entry into the scratch; the fifteen tiles after it leave the scratch alone. So after
  EVERY point `t` the scratch holds, at `(u, j)`, the decoder projection of batch entry `t / 16` at `(u, j)` — by
  induction on the point: a first tile by what it stores, any other tile by the tile before it, which belongs to the
  same batch entry.

  The output. At every point the body stores, at `(p, u, v)` of its block, the joint network's value for batch entry
  `t / 16`, frame `16 · (t % 16) + p`, position `u`, vocabulary entry `v`: the encoder block's row `p` is that frame,
  the scratch (just written, or carried) is that batch entry's decoder projection, and the weight windows hold the
  transposed weights, so each sum is the specification's sum term by term. The 128 blocks tile the result array,
  hence the array ends holding the specification's function of the arguments.
-/
import proofs.«178111_j59871844106969_1_alg».proof.Proof.Gen.KernelIdeal.Value
import proofs.«178111_j59871844106969_1_alg».proof.Proof.JointSpec
import proofs.«178111_j59871844106969_1_alg».proof.Proof.JointBody
import proofs.«178111_j59871844106969_1_alg».proof.Proof.JointPieces
import proofs.«178111_j59871844106969_1_alg».proof.Proof.JointBlocks

noncomputable section

open scoped BigOperators

namespace Cert.JointKernel

open Cert.KernelIdeal Cert.KernelIdeal.Gen Idealize.ShloMosaic Idealize.ShloMosaic.TcCoe Idealize.SL.Sem
open Idealize.ShloMosaic.ValueIdx Cert.JointSpec
open Idealize.ShloMosaic.Pipeline (Dat)

variable (m : (ℓ : Loc nD τ sig) → Buf (Elt Ideal) ℓ) (ρ : Dev nD → PrngReg)

/-- The joint network of the argument arrays as launched. -/
abbrev result (c : Dev nD) : FVec Ideal SOut .f32 := out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The batch entry's decoder projection, of the arguments as launched. -/
abbrev decP (c : Dev nD) : Fin 8 → Fin 64 → Fin 640 → EReal := decProj (m ((c : Thread nD τ).loc main_arg1)) (m ((c : Thread nD τ).loc main_arg4)) (m ((c : Thread nD τ).loc main_arg5))

/-! ## The weight windows' entries, in the arguments' orientation -/

theorem wenc_at (c : Dev nD) (t : Fin cfg0.N) (d : Fin 512) (j : Fin 640) :
    (iblk m c 2 t : FVec Ideal S512x640 .bf16) (ix2 d j) = (m ((c : Thread nD τ).loc main_arg2)) (ix2 j d) :=
  (JointBlocks.wenc_blk m c t d j).trans ((congrFun (JointBlocks.V_wenc m c) (ix2 d j)).trans (transpose_ix2_apply _ _ d j))

theorem wdec_at (c : Dev nD) (t : Fin cfg0.N) (d : Fin 512) (j : Fin 640) :
    (iblk m c 4 t : FVec Ideal S512x640 .bf16) (ix2 d j) = (m ((c : Thread nD τ).loc main_arg4)) (ix2 j d) :=
  (JointBlocks.wdec_blk m c t d j).trans ((congrFun (JointBlocks.V_wdec m c) (ix2 d j)).trans (transpose_ix2_apply _ _ d j))

theorem wout_at (c : Dev nD) (t : Fin cfg0.N) (j : Fin 640) (v : Fin 1024) :
    (iblk m c 6 t : FVec Ideal S640x1024 .bf16) (ix2 j v) = (m ((c : Thread nD τ).loc main_arg6)) (ix2 v j) :=
  (JointBlocks.wout_blk m c t j v).trans ((congrFun (JointBlocks.V_wout m c) (ix2 j v)).trans (transpose_ix2_apply _ _ j v))

/-! ## The scratch after every point -/

/-- What a first tile stores into the scratch is its batch entry's decoder projection. -/
theorem pay1_eq (c : Dev nD) (t : Fin cfg0.N) (b : Fin 8) (hb : b.val = t.val / 16) (u : Fin 64) (j : Fin 640) :
    k0_pay1 (F := Ideal) (iblk m c 1 t) (iblk m c 4 t) (iblk m c 5 t) (ix2 u j) = decP m c b u j := by
  refine (JointBody.pay1_apply (iblk m c 1 t) (iblk m c 4 t) (iblk m c 5 t) u j).trans ?_
  unfold decP decProj
  refine congrArg₂ (· + ·) (Finset.sum_congr rfl fun d _ => congrArg₂ (· * ·) ?_ ?_) ?_
  · exact JointBlocks.dec_blk m c t u d b hb
  · exact wdec_at m c t d j
  · exact JointBlocks.bdec_blk m c t j

/-- After every point the scratch holds the decoder projection of the point's batch entry: by induction on the point's
    position `n` in the grid's order. -/
theorem scratch_eq (c : Dev nD) (n : ℕ) : ∀ (t : Fin cfg0.N), t.val = n → ∀ (b : Fin 8), b.val = t.val / 16 →
    ∀ (u : Fin 64) (j : Fin 640), (outsAt0 m c t.val t.isLt).2 (ix2 u j) = decP m c b u j := by
  induction n using Nat.strong_induction_on with
  | _ n ih =>
    intro t ht b hb u j
    by_cases h0 : t.val % 16 = 0
    · have e2 : (outsAt0 m c t.val t.isLt).2 = k0_pay1 (F := Ideal) (iblk m c 1 t) (iblk m c 4 t) (iblk m c 5 t) := by
        simp only [outsAt0_A m c t h0]
        exact JointPieces.scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)
      rw [e2]
      exact pay1_eq m c t b hb u j
    · have hlt : t.val - 1 < cfg0.N := Nat.lt_of_le_of_lt (Nat.sub_le _ _) t.isLt
      have e2 : (outsAt0 m c t.val t.isLt).2 = (outsAt0 m c (t.val - 1) hlt).2 := by
        simp only [outsAt0_B m c t h0]
        rfl
      rw [e2]
      exact ih (t.val - 1) (by omega) ⟨t.val - 1, hlt⟩ rfl b (by show b.val = (t.val - 1) / 16; omega) u j

/-! ## The output block of every point -/

/-- With a scratch that holds the batch entry's decoder projection, the body's output value at `(p, u, v)` is the joint
    network at frame `16 · (t % 16) + p` of batch entry `t / 16`. -/
theorem out_of_scratch (c : Dev nD) (t : Fin cfg0.N) (S : FVec Ideal S64x640 .f32) (b : Fin 8) (hb : b.val = t.val / 16)
    (hS : ∀ (u : Fin 64) (j : Fin 640), S (ix2 u j) = decP m c b u j)
    (p : Fin 16) (u : Fin 64) (v : Fin 1024) (s : Fin 256) (hs : s.val = t.val % 16 * 16 + p.val) :
    k0_pay2 (F := Ideal) (iblk m c 0 t) (iblk m c 2 t) (iblk m c 3 t) S (iblk m c 6 t) (iblk m c 7 t) (ix4 (0 : Fin 1) p u v)
      = result m c (ix4 b s u v) := by
  refine (JointBody.pay2_apply (iblk m c 0 t) (iblk m c 2 t) (iblk m c 3 t) S (iblk m c 6 t) (iblk m c 7 t) p u v).trans ?_
  unfold result out joint encProj
  refine congrArg₂ (· + ·) (Finset.sum_congr rfl fun j _ => congrArg₂ (· * ·) (congrArg Ideal.tanh (congrArg₂ (· + ·)
    (congrArg₂ (· + ·) (Finset.sum_congr rfl fun d _ => congrArg₂ (· * ·) ?_ ?_) ?_) ?_)) ?_) ?_
  · exact JointBlocks.enc_blk m c t p d b s hb hs
  · exact wenc_at m c t d j
  · exact JointBlocks.benc_blk m c t j
  · exact hS u j
  · exact wout_at m c t j v
  · exact JointBlocks.bout_blk m c t v

/-- What the output's staging buffer holds after point `t`, at `y`, is the joint network at the array index `i` under it. -/
theorem out_blk (c : Dev nD) (t : Fin cfg0.N) (y : S1x16x64x1024.Idx) (i : SOut.Idx)
    (h0 : (i 0).val = t.val / 16) (h1 : (i 1).val = t.val % 16 * 16 + (y 1).val) (h2 : (i 2).val = (y 2).val)
    (h3 : (i 3).val = (y 3).val) :
    (outsAt0 m c t.val t.isLt).1 y = result m c i := by
  obtain ⟨q, p, u, v, rfl⟩ : ∃ (q : Fin 1) (p : Fin 16) (u : Fin 64) (v : Fin 1024), y = ix4 q p u v :=
    ⟨y 0, y 1, y 2, y 3, eq_ix4 y⟩
  obtain rfl : q = 0 := Subsingleton.elim _ _
  obtain ⟨b, s, u', v', rfl⟩ : ∃ (b : Fin 8) (s : Fin 256) (u' : Fin 64) (v' : Fin 1024), i = ix4 b s u' v' :=
    ⟨i 0, i 1, i 2, i 3, eq_ix4 i⟩
  obtain rfl : u' = u := Fin.ext h2
  obtain rfl : v' = v := Fin.ext h3
  have hb : b.val = t.val / 16 := h0
  have hs : s.val = t.val % 16 * 16 + p.val := h1
  by_cases hc : t.val % 16 = 0
  · have e1 : (outsAt0 m c t.val t.isLt).1 = k0_pay2 (F := Ideal) (iblk m c 0 t) (iblk m c 2 t) (iblk m c 3 t)
        (k0_pay1 (F := Ideal) (iblk m c 1 t) (iblk m c 4 t) (iblk m c 5 t)) (iblk m c 6 t) (iblk m c 7 t) := by
      simp only [outsAt0_A m c t hc]
      exact JointPieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr hc) (iblk m c 0 t) (iblk m c 1 t) (iblk m c 2 t) (iblk m c 3 t) (iblk m c 4 t) (iblk m c 5 t) (iblk m c 6 t) (iblk m c 7 t)
    rw [e1]
    exact out_of_scratch m c t _ b hb (fun u j => pay1_eq m c t b hb u j) p u' v' s hs
  · have hlt : t.val - 1 < cfg0.N := Nat.lt_of_le_of_lt (Nat.sub_le _ _) t.isLt
    have e1 : (outsAt0 m c t.val t.isLt).1 = k0_pay2 (F := Ideal) (iblk m c 0 t) (iblk m c 2 t) (iblk m c 3 t)
        (outsAt0 m c (t.val - 1) hlt).2 (iblk m c 6 t) (iblk m c 7 t) := by
      simp only [outsAt0_B m c t hc]
      exact JointPieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => hc ((hcond0_0 t).mp h)) (iblk m c 0 t) (iblk m c 1 t) (iblk m c 2 t) (iblk m c 3 t) (iblk m c 4 t) (iblk m c 5 t) (iblk m c 6 t) (iblk m c 7 t) (outsAt0 m c (t.val - 1) hlt).2
    rw [e1]
    have hb' : b.val = (t.val - 1) / 16 := by omega
    exact out_of_scratch m c t _ b hb
      (fun u j => scratch_eq m c (t.val - 1) ⟨t.val - 1, hlt⟩ rfl b hb' u j) p u' v' s hs

/-! ## From blocks to the array -/

/-- What point `t` writes back is block `t` of the joint network of the arguments. -/
theorem flushed_eq (c : Dev nD) (t : Fin cfg0.N) :
    (dats m 0 c).flushed 8 t = ((cfg0.win 8).blk t).view.read (Elt Ideal) (result m c) := by
  obtain ⟨-, -, -, -, -, -, -, -, ⟨e0, e1, e2, e3⟩⟩ := JointBlocks.idx_facts t
  rw [Value.flushed8]
  funext y
  rw [View.read_apply]
  show (outsAt0 m c t.val t.isLt).1 y = result m c (((cfg0.win 8).blk t).view.emb y)
  have y0 : (y 0).val < 1 := (y 0).isLt
  refine out_blk m c t y _ ?_ ?_ ?_ ?_
  · show win0_8.index t (0 : Fin 4) * 1 + 1 * (y 0).val = t.val / 16; omega
  · show win0_8.index t (1 : Fin 4) * 16 + 1 * (y 1).val = t.val % 16 * 16 + (y 1).val; omega
  · show win0_8.index t (2 : Fin 4) * 64 + 1 * (y 2).val = (y 2).val; omega
  · show win0_8.index t (3 : Fin 4) * 1024 + 1 * (y 3).val = (y 3).val; omega

/-- An index of the result array is in point `t`'s block iff each coordinate is in the block's range on its axis. -/
theorem mem_blk (t : Fin cfg0.N) (i : S8x256x64x1024.Idx) :
    i ∈ ((cfg0.win 8).blk t).view.set ↔ ∀ a : Fin 4, win0_8.index t a * S1x16x64x1024.size a ≤ (i a).val
      ∧ (i a).val < win0_8.index t a * S1x16x64x1024.size a + S1x16x64x1024.size a := by
  show i ∈ ((View.whole main_v6).slice (win0_8.rect t)).set ↔ _
  rw [View.set_slice_whole, Rect.mem_set_unit]
  exact Iff.rfl

/-- Every index of the result array is in the block of the point (batch entry, frame tile) it belongs to. -/
theorem cover (i : S8x256x64x1024.Idx) :
    ∃ t : Fin cfg0.N, (cfg0.win 8).flush t = true ∧ i ∈ ((cfg0.win 8).blk t).view.set := by
  have hN : cfg0.N = 128 := N_0
  have i0 : (i 0).val < 8 := (i 0).isLt
  have i1 : (i 1).val < 256 := (i 1).isLt
  have i2 : (i 2).val < 64 := (i 2).isLt
  have i3 : (i 3).val < 1024 := (i 3).isLt
  obtain ⟨t, ht⟩ : ∃ t : Fin cfg0.N, t.val = (i 0).val * 16 + (i 1).val / 16 :=
    ⟨⟨(i 0).val * 16 + (i 1).val / 16, by omega⟩, rfl⟩
  obtain ⟨-, -, -, -, -, -, -, -, ⟨e0, e1, e2, e3⟩⟩ := JointBlocks.idx_facts t
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 64 ≤ (i 2).val ∧ (i 2).val < win0_8.index t (2 : Fin 4) * 64 + 64; omega
  | ⟨3, _⟩ => show win0_8.index t (3 : Fin 4) * 1024 ≤ (i 3).val ∧ (i 3).val < win0_8.index t (3 : Fin 4) * 1024 + 1024; omega

/-- The result array after the run is the joint network of the arguments. -/
theorem final (c : Dev nD) : (dats m 0 c).arrAt 8 cfg0.N = result m c :=
  (dats m 0 c).arrAt_eq_of_cover 8 (result m c) (fun t _ => flushed_eq m c t) cover

/-- The kernel's run: every weakly fair execution ends with the result array at the joint network of the arguments as
    launched, and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.JointKernel

end
-- ==== Proof.JointReference.lean ====
/-
  The reference computes the joint network.

  Read one operation at a time, the reference's last stage at an index `(b, t, u, v)` is the sum over the joint
  coordinate `j` of `tanh (encoder projection at (b, t, j) + decoder projection at (b, u, j))` times `W_out (v, j)`, plus
  `b_out v`: each matrix product is its sum over the contracted axis, each broadcast reads the operand at the index
  with the broadcast axis set to `0`, and the chain of index maps collapses to the coordinates of the specification.
-/
import proofs.«178111_j59871844106969_1_alg».proof.Proof.Gen.ReferenceIdeal.Read
import proofs.«178111_j59871844106969_1_alg».proof.Proof.JointSpec

noncomputable section

open scoped BigOperators

namespace Cert.JointReference

open Cert.ReferenceIdeal Cert.ReferenceIdeal.Read Idealize.ShloMosaic Idealize.ShloMosaic.ValueIdx Cert.JointSpec

/-- The reference's result stage IS the specification, as a function of the eight argument arrays. -/
theorem reference_eq (x0 : FVec Ideal SEnc .f32) (x1 : FVec Ideal SDec .f32) (x2 : FVec Ideal SProj .f32) (x3 : FVec Ideal SJoint .f32)
    (x4 : FVec Ideal SProj .f32) (x5 : FVec Ideal SJoint .f32) (x6 : FVec Ideal SVocProj .f32) (x7 : FVec Ideal SVoc .f32) :
    val_main_v15 (F := Ideal) x0 x1 x2 x3 x4 x5 x6 x7 = out x0 x1 x2 x3 x4 x5 x6 x7 := by
  funext i
  -- the composed index maps, as coordinates
  have eE : ∀ (k : Fin 640) (d : Fin 512), lidx_main_v0 (idx_main_v8 (lidx_main_v12 i k)) d = ix4 (i 0) (i 1) 0 d :=
    fun k d => funext fun a => Fin.ext (by match a with | ⟨0, _⟩ => rfl | ⟨1, _⟩ => rfl | ⟨2, _⟩ => rfl | ⟨3, _⟩ => rfl)
  have eWE : ∀ (k : Fin 640) (d : Fin 512), ridx_main_v0 (idx_main_v8 (lidx_main_v12 i k)) d = ix2 k d :=
    fun k d => funext fun a => Fin.ext (by match a with | ⟨0, _⟩ => rfl | ⟨1, _⟩ => rfl)
  have eBE : ∀ k : Fin 640, idx_main_v1 (idx_main_v2 (idx_main_v8 (lidx_main_v12 i k))) = ix1 k :=
    fun k => funext fun a => Fin.ext (by match a with | ⟨0, _⟩ => rfl)
  have eD : ∀ (k : Fin 640) (d : Fin 512), lidx_main_v4 (idx_main_v9 (lidx_main_v12 i k)) d = ix4 (i 0) 0 (i 2) d :=
    fun k d => funext fun a => Fin.ext (by match a with | ⟨0, _⟩ => rfl | ⟨1, _⟩ => rfl | ⟨2, _⟩ => rfl | ⟨3, _⟩ => rfl)
  have eWD : ∀ (k : Fin 640) (d : Fin 512), ridx_main_v4 (idx_main_v9 (lidx_main_v12 i k)) d = ix2 k d :=
    fun k d => funext fun a => Fin.ext (by match a with | ⟨0, _⟩ => rfl | ⟨1, _⟩ => rfl)
  have eBD : ∀ k : Fin 640, idx_main_v5 (idx_main_v6 (idx_main_v9 (lidx_main_v12 i k))) = ix1 k :=
    fun k => funext fun a => Fin.ext (by match a with | ⟨0, _⟩ => rfl)
  have eWO : ∀ k : Fin 640, ridx_main_v12 i k = ix2 (i 3) k :=
    fun k => funext fun a => Fin.ext (by match a with | ⟨0, _⟩ => rfl | ⟨1, _⟩ => rfl)
  have eBO : idx_main_v13 (idx_main_v14 i) = ix1 (i 3) :=
    funext fun a => Fin.ext (by match a with | ⟨0, _⟩ => rfl)
  rw [val_main_v15_apply, val_main_v12_apply, val_main_v14_apply, val_main_v13_apply]
  simp only [val_main_v11_apply, val_main_v10_apply, val_main_v8_apply, val_main_v9_apply, val_main_v3_apply,
    val_main_v7_apply, val_main_v0_apply, val_main_v4_apply, val_main_v2_apply, val_main_v1_apply, val_main_v6_apply,
    val_main_v5_apply, eE, eWE, eBE, eD, eWD, eBD, eWO, eBO, Ideal.addf_def, Ideal.hostUnary_tanh_def]
  rfl

end Cert.JointReference

end
-- ==== Proof.lean ====
/-
  The joint network of a transducer: a Pallas kernel against its jnp reference, on the extended reals.

  Both programs compute, for a batch entry `b`, an encoder frame `t`, a decoder position `u` and a vocabulary entry `v`,

      out (b, t, u, v) = (∑ⱼ tanh (encProj b t j + decProj b u j) · W_out (v, j)) + b_out v,
      encProj b t j = (∑_d enc (b, t, 0, d) · W_enc (j, d)) + b_enc j,   decProj b u j = (∑_d dec (b, 0, u, d) · W_dec (j, d)) + b_dec j.

  The reference does it with three matrix products over whole arrays. The kernel walks a grid of 8 batch entries by 16
  frame tiles of 16 frames; the host first converts the three weight matrices to a short float format and transposes
  them; at the first tile of a batch entry the body stores that entry's decoder projection into a scratch it keeps
  for the entry's other fifteen tiles; at every tile it projects its 16 encoder frames, pairs them with the scratch's 64
  rows, takes `tanh`, and contracts the flattened 1024 pairs against the output weights.

  On the extended reals a change of float format is the identity and a matrix product into a zero accumulator is the
  plain sum over the contracted axis, so both sides are the same sums with the same grouping: no product is
  distributed over a sum, nothing is cancelled, and the finiteness of the inputs is never used. What has to be shown
  is bookkeeping: the scratch holds the right batch entry's decoder projection at every point (an induction along
  the grid), every block entry is the array entry the specification names, and the 128 output blocks tile the result.

  Modules: JointSpec (the formula), JointReference (the reference is the formula), JointBody (the body's two stored
  values at an entry), JointPieces (what one run of the body leaves in the scratch and the output block),
  JointBlocks (the loaded blocks as array entries), JointKernel (the scratch invariant, the blocks, the result array),
  and two general files, LibJointLayout (casts and broadcasts at coordinates) and LibMatmulRowsByCols (a matrix product
  at an entry).
-/
import proofs.«178111_j59871844106969_1_alg».proof.Defs
import proofs.«178111_j59871844106969_1_alg».proof.Proof.Gen.Kernel
import proofs.«178111_j59871844106969_1_alg».proof.Proof.Gen.Kernel.Frame
import proofs.«178111_j59871844106969_1_alg».proof.Proof.Gen.KernelIdeal
import proofs.«178111_j59871844106969_1_alg».proof.Proof.Gen.KernelIdeal.Frame
import proofs.«178111_j59871844106969_1_alg».proof.Proof.Gen.KernelIdeal.Value
import proofs.«178111_j59871844106969_1_alg».proof.Proof.Gen.ReferenceIdeal
import proofs.«178111_j59871844106969_1_alg».proof.Proof.Gen.ReferenceIdeal.Run
import proofs.«178111_j59871844106969_1_alg».proof.Proof.Gen.ReferenceIdeal.Read
import proofs.«178111_j59871844106969_1_alg».proof.Proof.Gen.Pre_finite_inputs
import proofs.«178111_j59871844106969_1_alg».proof.Proof.JointKernel
import proofs.«178111_j59871844106969_1_alg».proof.Proof.JointReference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments, the kernel's result array ends at the joint network of its
    arguments, and the reference's result is the same function of the same arguments. -/
theorem algebraic : Cert.algebraic_KernelIdeal_ReferenceIdeal := by
  intro m ρ m' ρ' _ hagree
  refine ⟨fun c => Cert.JointKernel.result m c, Cert.JointKernel.run m ρ, ?_⟩
  refine (θ_run Cert.ReferenceIdeal.defs _ _).mono (fun _ h c => ⟨(h c).1.trans ?_, (h c).2⟩)
    (Cert.ReferenceIdeal.Value.run (F := Ideal) m' ρ')
  have e := hagree c
  rw [e.1, e.2.1, e.2.2.1, e.2.2.2.1, e.2.2.2.2.1, e.2.2.2.2.2.1, e.2.2.2.2.2.2.1, e.2.2.2.2.2.2.2]
  exact (Cert.ReferenceIdeal.Read.val_main_v15_eq (F := Ideal) _ _ _ _ _ _ _ _).trans
    (Cert.JointReference.reference_eq _ _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
